-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16384 : Shape := ⟨2, ![256, 16384]⟩
abbrev S5x5 : Shape := ⟨2, ![5, 5]⟩
abbrev S5 : Shape := ⟨1, ![5]⟩
abbrev S_ : Shape := ⟨0, ![]⟩

class Facts : Prop where
  bcast_S_S256x16384 : S_.BroadcastsInDim S256x16384 (![] : Fin 0 → Fin S256x16384.rank)
  reducesTo_S256x16384_S_d0_1 : S256x16384.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S256x16384 .f32) (main_arg1 : FVec F S5x5 .f32) (main_arg2 : FVec F S5 .f32) (main_arg3 : FVec F S_ .f32) : IVec S_ 1 :=
  let main_v0 : FVec F S256x16384 .f32 := Host.absf main_arg0
  let main_cst : FVec F S_ .f32 := constant S_ .f32 0x7F800000#32
  let main_v1 : FVec F S256x16384 .f32 := broadcastInDim S256x16384 ![] bcast_S_S256x16384 main_cst
  let main_v2 : IVec S256x16384 1 := cmpf .olt main_v0 main_v1
  let main_c : IVec S_ 1 := constantI S_ 1 1#1
  let main_v3 : IVec S_ 1 := (fun x v => Host.reduce IntOp.andi x v reducesTo_S256x16384_S_d0_1 h_S_) main_v2 main_c
  let main_v4 : FVec F S5x5 .f32 := Host.absf main_arg1
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S256x16384 : Shape := ⟨2, ![256, 16384]⟩
abbrev S5x5 : Shape := ⟨2, ![5, 5]⟩
abbrev S5 : Shape := ⟨1, ![5]⟩
abbrev S_ : Shape := ⟨0, ![]⟩
abbrev S1x5 : Shape := ⟨2, ![1, 5]⟩
abbrev S2x1x16379 : Shape := ⟨3, ![2, 1, 16379]⟩
abbrev S32x16384 : Shape := ⟨2, ![32, 16384]⟩
abbrev S1x1x16379 : Shape := ⟨3, ![1, 1, 16379]⟩
abbrev S1x16379 : Shape := ⟨2, ![1, 16379]⟩
abbrev S32x16379 : Shape := ⟨2, ![32, 16379]⟩
abbrev S1x1 : Shape := ⟨2, ![1, 1]⟩
abbrev S16379 : Shape := ⟨1, ![16379]⟩
abbrev S2x16379 : Shape := ⟨2, ![2, 16379]⟩
abbrev S16378 : Shape := ⟨1, ![16378]⟩

abbrev nBuf : Space → Nat
  | .hbm => 18
  | .vmem => 7
  | .smem => 0
  | _ => 0

abbrev bufTy : (tb : Table) → Fin (tcTables nBuf tb) → BufTy
  | .hbm, ⟨0, _⟩ => ⟨S256x16384, .f32⟩
  | .hbm, ⟨1, _⟩ => ⟨S5x5, .f32⟩
  | .hbm, ⟨2, _⟩ => ⟨S5, .f32⟩
  | .hbm, ⟨3, _⟩ => ⟨S_, .f32⟩
  | .hbm, ⟨4, _⟩ => ⟨S1x5, .f32⟩
  | .hbm, ⟨5, _⟩ => ⟨S2x1x16379, .f32⟩
  | .hbm, ⟨6, _⟩ => ⟨S2x16379, .f32⟩
  | .hbm, ⟨7, _⟩ => ⟨S_, .f32⟩
  | .hbm, ⟨8, _⟩ => ⟨S16379, .f32⟩
  | .hbm, ⟨9, _⟩ => ⟨S_, .f32⟩
  | .hbm, ⟨10, _⟩ => ⟨S16379, .f32⟩
  | .hbm, ⟨11, _⟩ => ⟨S16379, .f32⟩
  | .hbm, ⟨12, _⟩ => ⟨S16378, .f32⟩
  | .hbm, ⟨13, _⟩ => ⟨S16378, .f32⟩
  | .hbm, ⟨14, _⟩ => ⟨S16378, .f32⟩
  | .hbm, ⟨15, _⟩ => ⟨S16378, .f32⟩
  | .hbm, ⟨16, _⟩ => ⟨S16378, .f32⟩
  | .hbm, ⟨17, _⟩ => ⟨S16378, .i1⟩
  | .local _ .vmem, ⟨0, _⟩ => ⟨S32x16384, .f32⟩
  | .local _ .vmem, ⟨1, _⟩ => ⟨S32x16384, .f32⟩
  | .local _ .vmem, ⟨2, _⟩ => ⟨S5x5, .f32⟩
  | .local _ .vmem, ⟨3, _⟩ => ⟨S1x5, .f32⟩
  | .local _ .vmem, ⟨4, _⟩ => ⟨S1x1x16379, .f32⟩
  | .local _ .vmem, ⟨5, _⟩ => ⟨S1x1x16379, .f32⟩
  | .local _ .vmem, ⟨6, _⟩ => ⟨S1x16379, .f32⟩
  | _, _ => ⟨S256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v186 : BitVec 1 := Scalar.cmpi .eq arg1 c3_i32
  let v187 : BitVec 32 := Scalar.extui v186
  let c0_i32_14 : BitVec 32 := 0#32
  let v188 : BitVec 1 := Scalar.cmpi .ne v187 c0_i32_14
  v188

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x16379 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S5_S1x5 : S5.ShapeCasts S1x5
  inb_S1x16379_S1x16379_0_0 : ∀ a, (![0, 0] : Fin 2 → Nat) a + S1x16379.size a ≤ S1x16379.size a
  h_S1x16379 : 0 < S1x16379.numel
  shapeCasts_S1x16379_S1x16379 : S1x16379.ShapeCasts S1x16379
  inb_S32x16384_S32x16384_0_0 : ∀ a, (![0, 0] : Fin 2 → Nat) a + S32x16384.size a ≤ S32x16384.size a
  h_S32x16384 : 0 < S32x16384.numel
  inb_S5x5_S5x5_0_0 : ∀ a, (![0, 0] : Fin 2 → Nat) a + S5x5.size a ≤ S5x5.size a
  h_S5x5 : 0 < S5x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  slices_S32x16384_o0_0_S32x16379 : S32x16384.Slices ![0, 0] S32x16379
  slices_S32x16384_o0_1_S32x16379 : S32x16384.Slices ![0, 1] S32x16379
  slices_S32x16384_o0_2_S32x16379 : S32x16384.Slices ![0, 2] S32x16379
  slices_S32x16384_o0_3_S32x16379 : S32x16384.Slices ![0, 3] S32x16379
  slices_S32x16384_o0_4_S32x16379 : S32x16384.Slices ![0, 4] S32x16379
  slices_S32x16384_o0_5_S32x16379 : S32x16384.Slices ![0, 5] S32x16379
  slices_S1x5_o0_0_S1x1 : S1x5.Slices ![0, 0] S1x1
  inpos_S1x1_p0_0 : ∀ a, (![0, 0] : Fin 2 → Nat) a < S1x1.size a
  slices_S5x5_o0_0_S1x1 : S5x5.Slices ![0, 0] S1x1
  slices_S5x5_o0_1_S1x1 : S5x5.Slices ![0, 1] S1x1
  slices_S5x5_o0_2_S1x1 : S5x5.Slices ![0, 2] S1x1
  slices_S5x5_o0_3_S1x1 : S5x5.Slices ![0, 3] S1x1
  slices_S5x5_o0_4_S1x1 : S5x5.Slices ![0, 4] S1x1
  reduces_S32x16379_S16379 : S32x16379.Reduces [0] S16379
  shapeCasts_S16379_S1x16379 : S16379.ShapeCasts S1x16379
  slices_S1x5_o0_1_S1x1 : S1x5.Slices ![0, 1] S1x1
  slices_S5x5_o1_0_S1x1 : S5x5.Slices ![1, 0] S1x1
  slices_S5x5_o1_1_S1x1 : S5x5.Slices ![1, 1] S1x1
  slices_S5x5_o1_2_S1x1 : S5x5.Slices ![1, 2] S1x1
  slices_S5x5_o1_3_S1x1 : S5x5.Slices ![1, 3] S1x1
  slices_S5x5_o1_4_S1x1 : S5x5.Slices ![1, 4] S1x1
  slices_S1x5_o0_2_S1x1 : S1x5.Slices ![0, 2] S1x1
  slices_S5x5_o2_0_S1x1 : S5x5.Slices ![2, 0] S1x1
  slices_S5x5_o2_1_S1x1 : S5x5.Slices ![2, 1] S1x1
  slices_S5x5_o2_2_S1x1 : S5x5.Slices ![2, 2] S1x1
  slices_S5x5_o2_3_S1x1 : S5x5.Slices ![2, 3] S1x1
  slices_S5x5_o2_4_S1x1 : S5x5.Slices ![2, 4] S1x1
  slices_S1x5_o0_3_S1x1 : S1x5.Slices ![0, 3] S1x1
  slices_S5x5_o3_0_S1x1 : S5x5.Slices ![3, 0] S1x1
  slices_S5x5_o3_1_S1x1 : S5x5.Slices ![3, 1] S1x1
  slices_S5x5_o3_2_S1x1 : S5x5.Slices ![3, 2] S1x1
  slices_S5x5_o3_3_S1x1 : S5x5.Slices ![3, 3] S1x1
  slices_S5x5_o3_4_S1x1 : S5x5.Slices ![3, 4] S1x1
  slices_S1x5_o0_4_S1x1 : S1x5.Slices ![0, 4] S1x1
  slices_S5x5_o4_0_S1x1 : S5x5.Slices ![4, 0] S1x1
  slices_S5x5_o4_1_S1x1 : S5x5.Slices ![4, 1] S1x1
  slices_S5x5_o4_2_S1x1 : S5x5.Slices ![4, 2] S1x1
  slices_S5x5_o4_3_S1x1 : S5x5.Slices ![4, 3] S1x1
  slices_S5x5_o4_4_S1x1 : S5x5.Slices ![4, 4] S1x1
  inb_S1x1x16379_S1x1x16379_0_0_0 : ∀ a, (![0, 0, 0] : Fin 3 → Nat) a + S1x1x16379.size a ≤ S1x1x16379.size a
  h_S1x1x16379 : 0 < S1x1x16379.numel
  shapeCasts_S1x1x16379_S1x16379 : S1x1x16379.ShapeCasts S1x16379
  shapeCasts_S1x16379_S1x1x16379 : S1x16379.ShapeCasts S1x1x16379
  shapeCasts_S2x1x16379_S2x16379 : S2x1x16379.ShapeCasts S2x16379
  reducesTo_S2x16379_S16379_d0 : S2x16379.ReducesTo [0] S16379
  h_S_ : 0 < S_.numel
  bcast_S_S16379 : S_.BroadcastsInDim S16379 (![] : Fin 0 → Fin S16379.rank)
  slices_S16379_S16378_1 : S16379.Slices ![1] S16378
  slices_S16379_S16378_0 : S16379.Slices ![0] S16378
  bcast_S_S16378 : S_.BroadcastsInDim S16378 (![] : Fin 0 → Fin S16378.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S256x16384.size a
  hwx0_0 : ∀ i : grid0.Coords, EltTy.bits .f32 = 32 ∨ (Rect.block (s := S256x16384) S32x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x5.size a ≤ S5x5.size a
  hwx0_1 : ∀ i : grid0.Coords, EltTy.bits .f32 = 32 ∨ (Rect.block (s := S5x5) S5x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16379.size a ≤ S2x1x16379.size a
  hwx0_3 : ∀ i : grid0.Coords, EltTy.bits .f32 = 32 ∨ (Rect.block (s := S2x1x16379) S1x1x16379.size (cc0_transform_3 i) (hinb0_3 i)).WholeWords (EltTy.packing .f32)

variable [Facts₀]

abbrev win0_0 : Pipeline.Window sig grid0 :=
  Pipeline.Window.ofSpec (Memref.whole main_arg0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x16379.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x16384 : Shape := ⟨2, ![256, 16384]⟩
abbrev S5x5 : Shape := ⟨2, ![5, 5]⟩
abbrev S5 : Shape := ⟨1, ![5]⟩
abbrev S_ : Shape := ⟨0, ![]⟩
abbrev S16379 : Shape := ⟨1, ![16379]⟩
abbrev S16379x1 : Shape := ⟨2, ![16379, 1]⟩
abbrev S1x5 : Shape := ⟨2, ![1, 5]⟩
abbrev S16379x5 : Shape := ⟨2, ![16379, 5]⟩
abbrev S16379x5x1 : Shape := ⟨3, ![16379, 5, 1]⟩
abbrev S256x16379x5 : Shape := ⟨3, ![256, 16379, 5]⟩
abbrev S1x1x5 : Shape := ⟨3, ![1, 1, 5]⟩
abbrev S16378 : Shape := ⟨1, ![16378]⟩

abbrev nBuf : Space → Nat
  | .hbm => 49
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S5x5, .f32⟩
  | .hbm, ⟨2, _⟩ => ⟨S5, .f32⟩
  | .hbm, ⟨3, _⟩ => ⟨S_, .f32⟩
  | .hbm, ⟨4, _⟩ => ⟨S16379, .i32⟩
  | .hbm, ⟨5, _⟩ => ⟨S16379x1, .i32⟩
  | .hbm, ⟨6, _⟩ => ⟨S5, .i32⟩
  | .hbm, ⟨7, _⟩ => ⟨S1x5, .i32⟩
  | .hbm, ⟨8, _⟩ => ⟨S16379x5, .i32⟩
  | .hbm, ⟨9, _⟩ => ⟨S16379x5, .i32⟩
  | .hbm, ⟨10, _⟩ => ⟨S16379x5, .i32⟩
  | .hbm, ⟨11, _⟩ => ⟨S_, .i32⟩
  | .hbm, ⟨12, _⟩ => ⟨S16379x5, .i32⟩
  | .hbm, ⟨13, _⟩ => ⟨S16379x5, .i1⟩
  | .hbm, ⟨14, _⟩ => ⟨S_, .i32⟩
  | .hbm, ⟨15, _⟩ => ⟨S16379x5, .i32⟩
  | .hbm, ⟨16, _⟩ => ⟨S16379x5, .i32⟩
  | .hbm, ⟨17, _⟩ => ⟨S16379x5, .i32⟩
  | .hbm, ⟨18, _⟩ => ⟨S16379x5x1, .i32⟩
  | .hbm, ⟨19, _⟩ => ⟨S256x16379x5, .f32⟩
  | .hbm, ⟨20, _⟩ => ⟨S_, .i32⟩
  | .hbm, ⟨21, _⟩ => ⟨S16379x5, .i32⟩
  | .hbm, ⟨22, _⟩ => ⟨S16379x5, .i32⟩
  | .hbm, ⟨23, _⟩ => ⟨S_, .i32⟩
  | .hbm, ⟨24, _⟩ => ⟨S16379x5, .i32⟩
  | .hbm, ⟨25, _⟩ => ⟨S16379x5, .i1⟩
  | .hbm, ⟨26, _⟩ => ⟨S_, .i32⟩
  | .hbm, ⟨27, _⟩ => ⟨S16379x5, .i32⟩
  | .hbm, ⟨28, _⟩ => ⟨S16379x5, .i32⟩
  | .hbm, ⟨29, _⟩ => ⟨S16379x5, .i32⟩
  | .hbm, ⟨30, _⟩ => ⟨S16379x5x1, .i32⟩
  | .hbm, ⟨31, _⟩ => ⟨S256x16379x5, .f32⟩
  | .hbm, ⟨32, _⟩ => ⟨S256x16379x5, .f32⟩
  | .hbm, ⟨33, _⟩ => ⟨S1x1x5, .f32⟩
  | .hbm, ⟨34, _⟩ => ⟨S256x16379x5, .f32⟩
  | .hbm, ⟨35, _⟩ => ⟨S256x16379x5, .f32⟩
  | .hbm, ⟨36, _⟩ => ⟨S256x16379x5, .f32⟩
  | .hbm, ⟨37, _⟩ => ⟨S256x16379x5, .f32⟩
  | .hbm, ⟨38, _⟩ => ⟨S_, .f32⟩
  | .hbm, ⟨39, _⟩ => ⟨S16379, .f32⟩
  | .hbm, ⟨40, _⟩ => ⟨S_, .f32⟩
  | .hbm, ⟨41, _⟩ => ⟨S16379, .f32⟩
  | .hbm, ⟨42, _⟩ => ⟨S16379, .f32⟩
  | .hbm, ⟨43, _⟩ => ⟨S16378, .f32⟩
  | .hbm, ⟨44, _⟩ => ⟨S16378, .f32⟩
  | .hbm, ⟨45, _⟩ => ⟨S16378, .f32⟩
  | .hbm, ⟨46, _⟩ => ⟨S16378, .f32⟩
  | .hbm, ⟨47, _⟩ => ⟨S16378, .f32⟩
  | .hbm, ⟨48, _⟩ => ⟨S16378, .i1⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  bcast_S16379_S16379x1_0 : S16379.BroadcastsInDim S16379x1 (![0] : Fin 1 → Fin S16379x1.rank)
  bcast_S5_S1x5_1 : S5.BroadcastsInDim S1x5 (![1] : Fin 1 → Fin S1x5.rank)
  bcast_S16379x1_S16379x5_0_1 : S16379x1.BroadcastsInDim S16379x5 (![0, 1] : Fin 2 → Fin S16379x5.rank)
  bcast_S1x5_S16379x5_0_1 : S1x5.BroadcastsInDim S16379x5 (![0, 1] : Fin 2 → Fin S16379x5.rank)
  bcast_S_S16379x5 : S_.BroadcastsInDim S16379x5 (![] : Fin 0 → Fin S16379x5.rank)
  bcast_S16379x5_S16379x5x1_0_1 : S16379x5.BroadcastsInDim S16379x5x1 (![0, 1] : Fin 2 → Fin S16379x5x1.rank)
  bcast_S5_S1x1x5_2 : S5.BroadcastsInDim S1x1x5 (![2] : Fin 1 → Fin S1x1x5.rank)
  bcast_S1x1x5_S256x16379x5_0_1_2 : S1x1x5.BroadcastsInDim S256x16379x5 (![0, 1, 2] : Fin 3 → Fin S256x16379x5.rank)
  reducesTo_S256x16379x5_S16379_d0_2 : S256x16379x5.ReducesTo [0, 2] S16379
  h_S_ : 0 < S_.numel
  bcast_S_S16379 : S_.BroadcastsInDim S16379 (![] : Fin 0 → Fin S16379.rank)
  slices_S16379_S16378_1 : S16379.Slices ![1] S16378
  slices_S16379_S16378_0 : S16379.Slices ![0] S16378
  bcast_S_S16378 : S_.BroadcastsInDim S16378 (![] : Fin 0 → Fin S16378.rank)
  gather_S256x16384_S16379x5x1_S256x16379x5_0_1_n_n_1_2_2561_wf : GatherDims.WF S256x16384 S16379x5x1 S256x16379x5 [0] [1] [] [1] [] 2 ![256, 1]
  dot_S256x16379x5_S5x5_S256x16379x5_2_1_01_0_n_n_wf : DotDims.WF S256x16379x5 S5x5 S256x16379x5 [2] [1] [0, 1] [0] [] []

variable [Facts₀]

def gather_S256x16384_S16379x5x1_S256x16379x5_0_1_n_n_1_2_2561 : GatherDims S256x16384 S16379x5x1 S256x16379x5 where
  offsetDims := [0]
  collapsedSliceDims := [1]
  operandBatchingDims := []
  startIndicesBatchingDims := []
  startIndexMap := [1]
  indexVectorDim := 2
  sliceSizes := ![256, 1]
  wf := gather_S256x16384_S16379x5x1_S256x16379x5_0_1_n_n_1_2_2561_wf
def dot_S256x16379x5_S5x5_S256x16379x5_2_1_01_0_n_n : DotDims S256x16379x5 S5x5 S256x16379x5 where
  lhsContracting := [2]
  rhsContracting := [1]
  lhsNonContracting := [0, 1]
  rhsNonContracting := [0]
  lhsBatch := []
  rhsBatch := []
  wf := dot_S256x16379x5_S5x5_S256x16379x5_2_1_01_0_n_n_wf

class Facts : Prop extends Facts₀ where

variable [Facts]
-- ==== Proof.LibBlockSum.lean ====
/-
  Regrouping a long sum into consecutive blocks.

  A sum over `N = G · L` consecutive positions is the sum, over the `G` blocks of `L` consecutive positions each, of the
  blocks' own sums: position `kk` of block `kb` is position `L · kb + kk` of the whole range. Only commutativity and
  associativity of `+` are used, so the law holds in every additive commutative monoid — in particular on the extended
  reals, where `+` is commutative and associative although it does not cancel and `·` does not distribute at the
  infinities. It is the law that joins a contraction (a matrix product, a long reduction) accumulated block by block
  with the same contraction taken in one piece.

  `sum_blocks` states it over `Fin (G * L)`; `sum_blocks_of_eq` over `Fin N` for a total `N` given with `N = G * L`
  (for literal sizes the equation is `rfl`), the position written `⟨L * kb + kk, _⟩`.
-/
import Mathlib.Logic.Equiv.Fin.Basic
import Mathlib.Data.Fintype.BigOperators

namespace Cert.Lib.BlockSum

open Finset

/-- Position `kk` of block `kb`, among `G · L` consecutive positions cut into `G` blocks of `L`. -/
def blockPos (G L : ℕ) (kb : Fin G) (kk : Fin L) : Fin (G * L) := finProdFinEquiv (kb, kk)

/-- As a number, position `kk` of block `kb` is `kk + L · kb`. -/
theorem blockPos_val (G L : ℕ) (kb : Fin G) (kk : Fin L) : (blockPos G L kb kk).val = kk.val + L * kb.val := rfl

/-- `L · kb + kk` is one of the `N = G · L` positions. -/
theorem blockPos_lt {G L N : ℕ} (hN : N = G * L) (kb : Fin G) (kk : Fin L) : L * kb.val + kk.val < N :=
  calc L * kb.val + kk.val < L * kb.val + L := Nat.add_lt_add_left kk.isLt _
    _ = L * (kb.val + 1) := (Nat.mul_succ L kb.val).symm
    _ ≤ L * G := Nat.mul_le_mul_left L kb.isLt
    _ = N := by rw [hN, Nat.mul_comm]

/-- A sum over `G · L` positions is the sum over the blocks of each block's sum. -/
theorem sum_blocks {M : Type*} [AddCommMonoid M] (G L : ℕ) (f : Fin (G * L) → M) :
    ∑ k, f k = ∑ kb : Fin G, ∑ kk : Fin L, f (blockPos G L kb kk) :=
  (Fintype.sum_equiv finProdFinEquiv (fun p => f (finProdFinEquiv p)) f (fun _ => rfl)).symm.trans
    (Fintype.sum_prod_type _)

/-- The same over `Fin N` with `N = G · L`, the position written `L · kb + kk`. -/
theorem sum_blocks_of_eq {M : Type*} [AddCommMonoid M] {G L N : ℕ} (hN : N = G * L) (f : Fin N → M) :
    ∑ k, f k = ∑ kb : Fin G, ∑ kk : Fin L, f ⟨L * kb.val + kk.val, blockPos_lt hN kb kk⟩ := by
  subst hN
  refine (sum_blocks G L f).trans ?_
  refine Finset.sum_congr rfl fun kb _ => Finset.sum_congr rfl fun kk _ => congrArg f (Fin.ext ?_)
  show kk.val + L * kb.val = L * kb.val + kk.val
  exact Nat.add_comm _ _

end Cert.Lib.BlockSum
-- ==== Proof.WindowLoss.lean ====
/-
  The windowed one-step prediction loss, as a function on the extended reals.

  A row of the series is a function `row : Fin 16384 → EReal`. For a window starting at sample `n` (there are
  16379 of them) and an output `h` of the 5 × 5 affine map, the prediction is
  `bias h + Σ_w weight h w · row (n + w)`, the target is `row (n + 1 + h)`, and the squared error is the square of
  their difference. The loss of window `n` sums the squared error over all rows and all five outputs (and is then
  divided by their number, which both programs do by the same division).

  Two arrangements of that double sum meet here. One accumulates, row block by row block of 32 rows, output by
  output, onto a running value (`blockAcc`); the other sums over all 256 rows and the five outputs at once
  (`totalErr`). They are equal because `+` on the extended reals is commutative and associative; nothing is
  cancelled and nothing is distributed, so no finiteness is needed.
-/
import Idealize.ShloMosaic.PureOps.Ideal
import proofs.«107599_j63307817943524_1_alg».proof.Proof.LibBlockSum

noncomputable section

namespace Cert.WindowLoss

open Finset

/-- Sample `n + k` of a row, for a window start `n` and a shift `k` of at most five. -/
def sh (n : Fin 16379) (k : Fin 6) : Fin 16384 := ⟨n.val + k.val, by have := n.isLt; have := k.isLt; omega⟩

theorem sh_val (n : Fin 16379) (k : Fin 6) : (sh n k).val = n.val + k.val := rfl

variable (W : Fin 5 → Fin 5 → EReal) (bv : Fin 5 → EReal)

/-- The prediction for output `h` of window `n` on one row: the bias, then the five weighted samples added one
    after the other. -/
def pred (row : Fin 16384 → EReal) (n : Fin 16379) (h : Fin 5) : EReal :=
  ((((bv h + W h 0 * row (sh n 0)) + W h 1 * row (sh n 1)) + W h 2 * row (sh n 2)) + W h 3 * row (sh n 3))
    + W h 4 * row (sh n 4)

/-- The same prediction written as a contraction over the window followed by the bias. -/
theorem pred_eq_sum (row : Fin 16384 → EReal) (n : Fin 16379) (h : Fin 5) :
    pred W bv row n h = (∑ w : Fin 5, row (sh n w.castSucc) * W h w) + bv h := by
  unfold pred
  rw [Fin.sum_univ_five]
  show _ = (row (sh n 0) * W h 0 + row (sh n 1) * W h 1 + row (sh n 2) * W h 2 + row (sh n 3) * W h 3
    + row (sh n 4) * W h 4) + bv h
  simp only [mul_comm, add_assoc, add_comm, add_left_comm]

/-- The squared prediction error of output `h` of window `n` on one row; the target is the sample `n + 1 + h`. -/
def sqErr (row : Fin 16384 → EReal) (n : Fin 16379) (h : Fin 5) : EReal :=
  (pred W bv row n h - row (sh n h.succ)) * (pred W bv row n h - row (sh n h.succ))

/-- A running value after one block of 32 rows: for each output in turn, the block's summed squared errors are
    added on. -/
def blockAcc (acc : EReal) (rows : Fin 32 → Fin 16384 → EReal) (n : Fin 16379) : EReal :=
  ((((acc + ∑ b : Fin 32, sqErr W bv (rows b) n 0) + ∑ b : Fin 32, sqErr W bv (rows b) n 1)
    + ∑ b : Fin 32, sqErr W bv (rows b) n 2) + ∑ b : Fin 32, sqErr W bv (rows b) n 3)
    + ∑ b : Fin 32, sqErr W bv (rows b) n 4

/-- The summed squared errors of one block of 32 rows, over the five outputs. -/
def blockErr (rows : Fin 32 → Fin 16384 → EReal) (n : Fin 16379) : EReal :=
  ∑ h : Fin 5, ∑ b : Fin 32, sqErr W bv (rows b) n h

theorem blockAcc_eq (acc : EReal) (rows : Fin 32 → Fin 16384 → EReal) (n : Fin 16379) :
    blockAcc W bv acc rows n = acc + blockErr W bv rows n := by
  unfold blockAcc blockErr
  rw [Fin.sum_univ_five]
  simp only [add_assoc]

/-- The summed squared errors of all 256 rows and five outputs. -/
def totalErr (rows : Fin 256 → Fin 16384 → EReal) (n : Fin 16379) : EReal :=
  ∑ b : Fin 256, ∑ h : Fin 5, sqErr W bv (rows b) n h

/-- Row `b` of block `t` of the eight blocks of 32 rows. -/
def blockRow (t : Fin 8) (b : Fin 32) : Fin 256 := ⟨32 * t.val + b.val, Cert.Lib.BlockSum.blockPos_lt (by norm_num) t b⟩

/-- The sum over all rows is the sum of the eight blocks' sums. -/
theorem totalErr_eq_blocks (rows : Fin 256 → Fin 16384 → EReal) (n : Fin 16379) :
    totalErr W bv rows n = ∑ t : Fin 8, blockErr W bv (fun b => rows (blockRow t b)) n := by
  unfold totalErr blockErr
  rw [Cert.Lib.BlockSum.sum_blocks_of_eq (G := 8) (L := 32) (by norm_num)
    (fun b : Fin 256 => ∑ h : Fin 5, sqErr W bv (rows b) n h)]
  refine Finset.sum_congr rfl fun t _ => ?_
  rw [Finset.sum_comm]
  rfl

end Cert.WindowLoss

end
-- ==== Proof.PointUpdate.lean ====
/-
  One grid point of the loss kernel, read as a value.

  At a grid point the body holds a block of 32 rows of the series, the 5 × 5 weights, the bias row and the running
  accumulator row (one entry per window). For each output `h` it forms, elementwise over the block, the prediction
  `bias h + Σ_w weight h w · (block shifted by w)`, subtracts the block shifted by `h + 1`, squares, sums the 32 rows,
  and adds that row of column sums onto the accumulator. This module names that composed function (`accNext`) and
  reads it at a window `n`: it is the specification's `blockAcc` of the block's rows (`accNext_at`).

  The steps are the elementary readings: a unit slice plus an extract picks one weight or bias entry; a slice of the
  block at column offset `k` read at `(b, n)` is the block at `(b, n + k)`; a sum over the row axis from the zero word
  read at `n` is the sum over the 32 rows; a vector of windows viewed as a one-row matrix keeps its entries.
-/
import proofs.«107599_j63307817943524_1_alg».proof.Proof.Gen.KernelIdeal.Skeleton
import proofs.«107599_j63307817943524_1_alg».proof.Proof.WindowLoss
import Idealize.ShloMosaic.Lib.ValueIdx
import Idealize.ShloMosaic.Lib.Pipeline.Value
import Idealize.ShloMosaic.PureOps.Ideal.Laws

noncomputable section

namespace Cert.KernelIdeal.PointUpdate

open Idealize.ShloMosaic Idealize.ShloMosaic.ValueIdx Cert.KernelIdeal Cert.KernelIdeal.Gen Cert.WindowLoss

/-- An entry picked out of the 5 × 5 weight block by a unit slice and an extract is that entry. -/
theorem weight_at (x1 : FVec Ideal S5x5 .f32) (p q : ℕ) (hs : S5x5.Slices ![p, q] S1x1)
    (hp : ∀ a, (![0, 0] : Fin 2 → ℕ) a < S1x1.size a) :
    extractAt ![0, 0] (extractStridedSlice S1x1 ![p, q] x1 hs) hp
      = x1 (ix2 ⟨p, by have h : p + 1 ≤ 5 := hs.2 0; omega⟩ ⟨q, by have h : q + 1 ≤ 5 := hs.2 1; omega⟩) := by
  unfold extractAt extractStridedSlice
  refine congrArg x1 (funext fun a => Fin.ext ?_)
  match a with
  | ⟨0, _⟩ => rfl
  | ⟨1, _⟩ => rfl

/-- The same for the bias row, a 1 × 5 block. -/
theorem bias_at (x2 : FVec Ideal S1x5 .f32) (q : ℕ) (hs : S1x5.Slices ![0, q] S1x1)
    (hp : ∀ a, (![0, 0] : Fin 2 → ℕ) a < S1x1.size a) :
    extractAt ![0, 0] (extractStridedSlice S1x1 ![0, q] x2 hs) hp
      = x2 (ix2 0 ⟨q, by have h : q + 1 ≤ 5 := hs.2 1; omega⟩) := by
  unfold extractAt extractStridedSlice
  refine congrArg x2 (funext fun a => Fin.ext ?_)
  match a with
  | ⟨0, _⟩ => rfl
  | ⟨1, _⟩ => rfl

/-- The block of samples shifted by `k`, read at row `b` and window `n`, is the block at sample `n + k`. -/
theorem shifted_at (x0 : FVec Ideal S32x16384 .f32) (k : ℕ) (hs : S32x16384.Slices ![0, k] S32x16379) (b : Fin 32) (n : Fin 16379) :
    extractStridedSlice S32x16379 ![0, k] x0 hs (ix2 b n)
      = x0 (ix2 b ⟨n.val + k, by have h : k + 16379 ≤ 16384 := hs.2 1; have := n.isLt; omega⟩) := by
  unfold extractStridedSlice
  refine congrArg x0 (funext fun a => Fin.ext ?_)
  match a with
  | ⟨0, _⟩ => show 0 + b.val = b.val; omega
  | ⟨1, _⟩ => show k + n.val = n.val + k; omega

/-- A column sum over the 32 rows of a block, from the zero word, read at window `n`. -/
theorem colsum_at (v : FVec Ideal S32x16379 .f32) (h : S32x16379.Reduces [0] S16379) (hφ : FKind.Formats .f32)
    (hacc : (0x00000000#32 : BitVec 32) = FKind.add.neutral .f32 hφ) (n : Fin 16379) :
    multiReduction .add [0] S16379 v 0x00000000#32 h hφ hacc (ix1 n) = ∑ b : Fin 32, v (ix2 b n) := by
  refine (Ideal.multiReduction_add_single v 0x00000000#32 h hφ hacc (ix1 n)).trans ?_
  refine Finset.sum_congr rfl fun b _ => congrArg v (funext fun a => Fin.ext ?_)
  match a with
  | ⟨0, _⟩ => rfl
  | ⟨1, _⟩ => rfl

/-- A vector of 16379 windows viewed as one row. -/
theorem asRow_at (v : FVec Ideal S16379 .f32) (h : S16379.ShapeCasts S1x16379) (n : Fin 16379) :
    shapeCast S1x16379 v h (ix2 0 n) = v (ix1 n) := by
  refine shapeCast_apply v h (ix2 0 n) (ix1 n) ?_
  rw [Shape.rowMajor_val_one, Shape.rowMajor_val_two]
  show n.val = 0 * 16379 + n.val
  omega

variable {F : FTy → Type} [FloatOps F]

/-- One grid point's new accumulator row as the body computes it: from the block of 32 rows `x0`, the weights `x1`, the
    bias row `x2` and the accumulator row `acc` it loaded. -/
def accNext (x0 : Vec F S32x16384 .f32) (x1 : Vec F S5x5 .f32) (x2 : Vec F S1x5 .f32) (acc : Vec F S1x16379 .f32) :
    FVec F S1x16379 .f32 :=
  k0_pay1 x1 (k0_pay7 x0) (k0_pay8 x0) (k0_pay9 x0) (k0_pay13 x0)
    (k0_pay18 x1 (k0_pay4 x2) (k0_pay5 x0) (k0_pay6 x0) (k0_pay7 x0) (k0_pay8 x0) (k0_pay9 x0) (k0_pay11 x0) (k0_pay12 x0)
      (k0_pay15 x1 (k0_pay4 x2) (k0_pay5 x0) (k0_pay6 x0) (k0_pay7 x0) (k0_pay8 x0) (k0_pay9 x0) (k0_pay10 x0) acc
        (k0_pay14 x0 x1 x2))
      (k0_pay16 x1 (k0_pay4 x2) (k0_pay5 x0) (k0_pay6 x0) (k0_pay7 x0))
      (k0_pay17 x1))
    (k0_pay19 x1 (k0_pay4 x2) (k0_pay5 x0) (k0_pay6 x0))

/-- The new accumulator row at window `n`: the old one with the block's summed squared errors added on, output by
    output. -/
theorem accNext_at (x0 : Vec Ideal S32x16384 .f32) (x1 : Vec Ideal S5x5 .f32) (x2 : Vec Ideal S1x5 .f32)
    (acc : Vec Ideal S1x16379 .f32) (n : Fin 16379) :
    accNext x0 x1 x2 acc (ix2 0 n)
      = blockAcc (fun h w => x1 (ix2 h w)) (fun h => x2 (ix2 0 h)) (acc (ix2 0 n)) (fun b k => x0 (ix2 b k)) n := by
  unfold accNext k0_pay1 k0_pay18 k0_pay15 k0_pay14 k0_pay16 k0_pay17 k0_pay19 k0_pay4 k0_pay5 k0_pay6 k0_pay7 k0_pay8
    k0_pay9 k0_pay10 k0_pay11 k0_pay12 k0_pay13
  simp only [addf_apply, shapeCast_self, asRow_at]
  unfold blockAcc
  refine congrArg₂ (· + ·) (congrArg₂ (· + ·) (congrArg₂ (· + ·) (congrArg₂ (· + ·) (congrArg₂ (· + ·) rfl ?_) ?_) ?_) ?_) ?_
  all_goals
    refine (colsum_at _ _ _ _ n).trans (Finset.sum_congr rfl fun b _ => ?_)
    simp only [mulf_apply, subf_apply, addf_apply, broadcast_apply, shifted_at, weight_at, bias_at]
    rfl

end Cert.KernelIdeal.PointUpdate

end
-- ==== Proof.Pieces.lean ====
/-
  What each case of the kernel body leaves in the accumulator scratch and in the output block, as values.

  The body has three cases along the inner grid axis. At a core's first row block it clears the accumulator row and
  then adds the block's contribution; at the middle blocks it adds the block's contribution onto what the point before
  left; at the last block it does the same and then copies the row into the output block. In every case the row the
  scratch ends holding is the composed function `accNext` of the point's input blocks and of the row it started from
  (the zero row in the first case), and the output block of the last case is that row viewed as a [1, 1, 16379] block.
-/
import proofs.«107599_j63307817943524_1_alg».proof.Proof.Gen.KernelIdeal.Frame
import proofs.«107599_j63307817943524_1_alg».proof.Proof.PointUpdate
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen
open Idealize.ShloMosaic.Pipeline (Dat)
open Cert.KernelIdeal.PointUpdate (accNext)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Between the first and the last point of a core's row blocks: the scratch ends at the point's new accumulator row. -/
theorem scratch_B (c : Dev nD) (i : grid0.Coords) (arg2 : Memref sig .tc .vmem S32x16384 .f32) (harg2 : arg2.IsWhole) (arg3 : Memref sig .tc .vmem S5x5 .f32) (harg3 : arg3.IsWhole) (arg4 : Memref sig .tc .vmem S1x5 .f32) (harg4 : arg4.IsWhole) (arg5 : Memref sig .tc .vmem S1x1x16379 .f32) (harg5 : arg5.IsWhole) (arg6 : Memref sig .tc .vmem S1x16379 .f32) (harg6 : arg6.IsWhole) (hc0 : ¬cond0_0 i) (hc1 : ¬cond0_1 i)
    (x0 : Vec F S32x16384 .f32) (x1 : Vec F S5x5 .f32) (x2 : Vec F S1x5 .f32) (xs0 : Vec F S1x16379 .f32) :
    sout0_B_0 c i arg2 harg2 arg3 harg3 arg4 harg4 arg5 harg5 arg6 harg6 hc0 hc1 x0 x1 x2 xs0 = accNext x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S32x16384) hz2, View.ld_unit_zero (S := S5x5) hz2, View.ld_unit_zero (S := S1x5) hz2,
    View.ld_unit_zero (S := S1x16379) hz2]
  rfl

/-- At the last point of a core's row blocks the scratch ends at the point's new accumulator row. -/
theorem scratch_C (c : Dev nD) (i : grid0.Coords) (arg2 : Memref sig .tc .vmem S32x16384 .f32) (harg2 : arg2.IsWhole) (arg3 : Memref sig .tc .vmem S5x5 .f32) (harg3 : arg3.IsWhole) (arg4 : Memref sig .tc .vmem S1x5 .f32) (harg4 : arg4.IsWhole) (arg5 : Memref sig .tc .vmem S1x1x16379 .f32) (harg5 : arg5.IsWhole) (arg6 : Memref sig .tc .vmem S1x16379 .f32) (harg6 : arg6.IsWhole) (hc0 : ¬cond0_0 i) (hc1 : cond0_1 i)
    (x0 : Vec F S32x16384 .f32) (x1 : Vec F S5x5 .f32) (x2 : Vec F S1x5 .f32) (xs0 : Vec F S1x16379 .f32) :
    sout0_C_0 c i arg2 harg2 arg3 harg3 arg4 harg4 arg5 harg5 arg6 harg6 hc0 hc1 x0 x1 x2 xs0 = accNext x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S32x16384) hz2, View.ld_unit_zero (S := S5x5) hz2, View.ld_unit_zero (S := S1x5) hz2,
    View.ld_unit_zero (S := S1x16379) hz2]
  rfl

/-- At the last point of a core's row blocks the output block is the point's new accumulator row, viewed as a
    [1, 1, 16379] block. -/
theorem out_C (c : Dev nD) (i : grid0.Coords) (arg2 : Memref sig .tc .vmem S32x16384 .f32) (harg2 : arg2.IsWhole) (arg3 : Memref sig .tc .vmem S5x5 .f32) (harg3 : arg3.IsWhole) (arg4 : Memref sig .tc .vmem S1x5 .f32) (harg4 : arg4.IsWhole) (arg5 : Memref sig .tc .vmem S1x1x16379 .f32) (harg5 : arg5.IsWhole) (arg6 : Memref sig .tc .vmem S1x16379 .f32) (harg6 : arg6.IsWhole) (hc0 : ¬cond0_0 i) (hc1 : cond0_1 i)
    (x0 : Vec F S32x16384 .f32) (x1 : Vec F S5x5 .f32) (x2 : Vec F S1x5 .f32) (xs0 : Vec F S1x16379 .f32) :
    out0_C_3 c i arg2 harg2 arg3 harg3 arg4 harg4 arg5 harg5 arg6 harg6 hc0 hc1 x0 x1 x2 xs0 = k0_pay2 (accNext x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x16379) _ hz2]
  simp only [View.readAt_eq_ld, harg2.read_unread, harg3.read_unread, harg4.read_unread, harg6.read_unread,
    View.ld_unit_zero (S := S32x16384) hz2, View.ld_unit_zero (S := S5x5) hz2, View.ld_unit_zero (S := S1x5) hz2,
    View.ld_unit_zero (S := S1x16379) hz2]
  rfl

/-- At the first point of a core's row blocks the scratch is first cleared: it ends at the new accumulator row over
    the zero row. -/
theorem scratch_A (c : Dev nD) (i : grid0.Coords) (arg2 : Memref sig .tc .vmem S32x16384 .f32) (harg2 : arg2.IsWhole) (arg3 : Memref sig .tc .vmem S5x5 .f32) (harg3 : arg3.IsWhole) (arg4 : Memref sig .tc .vmem S1x5 .f32) (harg4 : arg4.IsWhole) (arg5 : Memref sig .tc .vmem S1x1x16379 .f32) (harg5 : arg5.IsWhole) (arg6 : Memref sig .tc .vmem S1x16379 .f32) (harg6 : arg6.IsWhole) (hc0 : cond0_0 i) (hc1 : ¬cond0_1 i)
    (x0 : Vec F S32x16384 .f32) (x1 : Vec F S5x5 .f32) (x2 : Vec F S1x5 .f32) :
    sout0_A_0 c i arg2 harg2 arg3 harg3 arg4 harg4 arg5 harg5 arg6 harg6 hc0 hc1 x0 x1 x2 = accNext x0 x1 x2 k0_pay3 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x16379) hz2, View.readCov_unit_zero (S := S1x16379) _ hz2]
  simp only [View.readAt_eq_ld, harg2.read_unread, harg3.read_unread, harg4.read_unread,
    View.ld_unit_zero (S := S32x16384) hz2, View.ld_unit_zero (S := S5x5) hz2, View.ld_unit_zero (S := S1x5) hz2]
  rfl

end Cert.KernelIdeal.Pieces

end
-- ==== Proof.GridSum.lean ====
/-
  The loss kernel's run, read as values.

  The grid has eight points: core `cc` (the outer axis) takes the row blocks `4·cc` to `4·cc + 3` of the series, 32 rows
  each. The accumulator scratch is cleared at a core's first block, and every point adds its block's summed squared
  errors (over its 32 rows and the five outputs) to it; so after point `t` the scratch holds, at window `n`, the sum of
  the blocks `t - t % 4 … t` (`cum`, by induction on the point). At a core's last block the row is written to the core's
  row of the [2, 1, 16379] output array, so that array ends holding the two cores' partial sums (`partial_final`).
  The host lines after the region add the two rows from the zero word — which gives the zero word plus the total over
  all 256 rows (`sumOf_at`) —, divide by 1280, and take the differences and the comparison (`run`).
-/
import proofs.«107599_j63307817943524_1_alg».proof.Proof.Pieces
import Idealize.ShloMosaic.Lib.Pipeline.Value
import Idealize.ShloMosaic.Lib.ValueIdx
import Idealize.ShloMosaic.Lib.StableHlo.Run

noncomputable section

namespace Cert.KernelIdeal.GridSum

open Idealize.ShloMosaic Idealize.ShloMosaic.TcCoe Idealize.SL.Sem Idealize.ShloMosaic.ValueIdx
open Cert.KernelIdeal Cert.KernelIdeal.Gen Cert.WindowLoss
open Idealize.ShloMosaic.Pipeline (Dat)
open Cert.KernelIdeal.PointUpdate (accNext accNext_at)
open Cert.KernelIdeal.Pieces (scratch_A scratch_B scratch_C out_C)

variable (m : (ℓ : Loc nD τ sig) → Buf (Elt Ideal) ℓ)

/-- The series, the weights and the bias as core `c` is launched with them. -/
abbrev ser (c : Dev nD) : S256x16384.Idx → EReal := m ((c.tc : Thread nD τ).loc main_arg0)
abbrev wts (c : Dev nD) : S5x5.Idx → EReal := m ((c.tc : Thread nD τ).loc main_arg1)
abbrev bia (c : Dev nD) : S5.Idx → EReal := m ((c.tc : Thread nD τ).loc main_arg2)

/-- The specification's parameters read off them. -/
abbrev W (c : Dev nD) : Fin 5 → Fin 5 → EReal := fun h w => wts m c (ix2 h w)
abbrev bv (c : Dev nD) : Fin 5 → EReal := fun h => bia m c (ix1 h)
abbrev rows (c : Dev nD) : Fin 256 → Fin 16384 → EReal := fun b k => ser m c (ix2 b k)

/-- A grid point as one of the eight row blocks. -/
def pt (t : Fin cfg0.N) : Fin 8 := ⟨t.val, lt_of_lt_of_eq t.isLt N_0⟩

/-- Where the windows' blocks sit: the series' block at point `t` is row block `t`; the weights and the bias are one
    block; the output's block at point `t` is row `t / 4`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = 0 :=
  (by decide +kernel : ∀ t : Fin grid0.N, _)

/-- The block of the series at point `t`, read at row `b` and sample `k`. -/
theorem blk0_at (c : Dev nD) (t : Fin cfg0.N) (b : Fin 32) (k : Fin 16384) :
    (iblk m c 0 t : Vec Ideal S32x16384 .f32) (ix2 b k) = ser m c (ix2 (blockRow (pt t) b) k) := by
  unfold iblk
  rw [View.read_apply]
  show V m c main_arg0 _ = _
  rw [V_main_arg0]
  refine congrArg _ (funext fun a => Fin.ext ?_)
  obtain ⟨e0, e1, -⟩ := idx_facts t
  match a with
  | ⟨0, _⟩ => show win0_0.index t (0 : Fin 2) * 32 + 1 * b.val = 32 * t.val + b.val; rw [e0]; omega
  | ⟨1, _⟩ => show win0_0.index t (1 : Fin 2) * 16384 + 1 * k.val = k.val; rw [e1]; omega

/-- The block of the weights, at any point, is the weights. -/
theorem blk1_at (c : Dev nD) (t : Fin cfg0.N) (h w : Fin 5) :
    (iblk m c 1 t : Vec Ideal S5x5 .f32) (ix2 h w) = wts m c (ix2 h w) := by
  unfold iblk
  rw [View.read_apply]
  show V m c main_arg1 _ = _
  rw [V_main_arg1]
  refine congrArg _ (funext fun a => Fin.ext ?_)
  obtain ⟨-, -, e0, e1, -⟩ := idx_facts t
  match a with
  | ⟨0, _⟩ => show win0_1.index t (0 : Fin 2) * 5 + 1 * h.val = h.val; rw [e0]; omega
  | ⟨1, _⟩ => show win0_1.index t (1 : Fin 2) * 5 + 1 * w.val = w.val; rw [e1]; omega

/-- The bias row the region finds: the bias vector viewed as one row. -/
theorem bias_row (c : Dev nD) :
    (V m c main_v0 : S1x5.Idx → EReal) = shapeCast S1x5 (bia m c) shapeCasts_S5_S1x5 := by
  show StableHlo.after hostOps0 (fun b => m (c, b)) (Proc.devRef .tc main_v0) = _
  after_results
  rfl

/-- The block of the bias row, at any point, read at output `h`. -/
theorem blk2_at (c : Dev nD) (t : Fin cfg0.N) (h : Fin 5) :
    (iblk m c 2 t : Vec Ideal S1x5 .f32) (ix2 0 h) = bia m c (ix1 h) := by
  unfold iblk
  rw [View.read_apply]
  show V m c main_v0 _ = _
  rw [bias_row]
  refine shapeCast_apply _ _ _ (ix1 h) ?_
  obtain ⟨-, -, -, -, e0, e1, -⟩ := idx_facts t
  rw [Shape.rowMajor_val_one, Shape.rowMajor_val_two]
  show h.val = (win0_2.index t (0 : Fin 2) * 1 + 1 * 0) * 5 + (win0_2.index t (1 : Fin 2) * 5 + 1 * h.val)
  rw [e0, e1]; omega

/-- The summed squared error of row block `u` at window `n` (blocks 0 to 7; the row number is reduced modulo 256 only so
    that the definition needs no side condition). -/
def be (c : Dev nD) (n : Fin 16379) (u : ℕ) : EReal :=
  blockErr (W m c) (bv m c) (fun b k => ser m c (ix2 ⟨(32 * u + b.val) % 256, Nat.mod_lt _ (by norm_num)⟩ k)) n

/-- For a block number below eight the reduction modulo 256 does nothing: the block's rows are rows `32·t + b`. -/
theorem be_pt (c : Dev nD) (n : Fin 16379) (t : Fin 8) :
    be m c n t.val = blockErr (W m c) (bv m c) (fun b => rows m c (blockRow t b)) n := by
  unfold be
  refine congrArg (fun r => blockErr (W m c) (bv m c) r n)
    (funext fun b => funext fun k => congrArg (fun r => ser m c (ix2 r k)) (Fin.ext ?_))
  show (32 * t.val + b.val) % 256 = 32 * t.val + b.val
  have := t.isLt; have := b.isLt
  exact Nat.mod_eq_of_lt (by omega)

/-- The accumulator row after point `u`, at window `n`: each core starts afresh at its first row block (the points
    divisible by four) and adds one row block's summed squared error per point. -/
def cum (c : Dev nD) (n : Fin 16379) : ℕ → EReal
  | 0 => be m c n 0
  | u + 1 => if (u + 1) % 4 = 0 then be m c n (u + 1) else cum c n u + be m c n (u + 1)

/-- One point's update at window `n`: the row it started from plus the point's row block's summed squared error. -/
theorem step_at (c : Dev nD) (t : Fin cfg0.N) (acc : Vec Ideal S1x16379 .f32) (n : Fin 16379) :
    accNext (iblk m c 0 t) (iblk m c 1 t) (iblk m c 2 t) acc (ix2 0 n) = acc (ix2 0 n) + be m c n t.val := by
  refine (accNext_at (iblk m c 0 t) (iblk m c 1 t) (iblk m c 2 t) acc n).trans ?_
  rw [blockAcc_eq]
  refine congrArg (acc (ix2 0 n) + ·) ?_
  have eW : (fun h w => (iblk m c 1 t : Vec Ideal S5x5 .f32) (ix2 h w)) = W m c :=
    funext fun h => funext fun w => blk1_at m c t h w
  have eb : (fun h => (iblk m c 2 t : Vec Ideal S1x5 .f32) (ix2 0 h)) = bv m c := funext fun h => blk2_at m c t h
  have er : (fun b k => (iblk m c 0 t : Vec Ideal S32x16384 .f32) (ix2 b k)) = fun b => rows m c (blockRow (pt t) b) :=
    funext fun b => funext fun k => blk0_at m c t b k
  exact ((congrArg (fun W' => blockErr W' _ _ n) eW).trans ((congrArg (fun b' => blockErr _ b' _ n) eb).trans
    (congrArg (fun r' => blockErr _ _ r' n) er))).trans (be_pt m c n (pt t)).symm

/-- The cleared accumulator row is zero. -/
theorem zero_row_at (n : Fin 16379) : (k0_pay3 (F := Ideal)) (ix2 0 n) = 0 := by
  unfold k0_pay3
  rw [shapeCast_self]
  exact Ideal.ofBits_zero_f32

/-- At a core's first row block (a point divisible by four) the scratch ends at the update of the zero row. -/
theorem scratch_first (c : Dev nD) (t : Fin cfg0.N) (h0 : t.val % 4 = 0) :
    (outsAt0 m c t.val t.isLt).2 = accNext (iblk m c 0 t) (iblk m c 1 t) (iblk m c 2 t) (k0_pay3 (F := Ideal)) := by
  have h1 : ¬ t.val % 4 = 3 := by omega
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At a point that is not a core's first row block the scratch ends at the update of what the point before left. -/
theorem scratch_next (c : Dev nD) (t : Fin cfg0.N) (h0 : ¬ t.val % 4 = 0) :
    (outsAt0 m c t.val t.isLt).2 = accNext (iblk m c 0 t) (iblk m c 1 t) (iblk m c 2 t)
      (outsAt0 m c (t.val - 1) (Nat.lt_of_le_of_lt (Nat.sub_le _ _) t.isLt)).2 := by
  by_cases h1 : t.val % 4 = 3
  · rw [outsAt0_C m c t h0 h1]
    dsimp only
    exact scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- At a core's last row block the output block is the scratch row viewed as a block. -/
theorem out_last (c : Dev nD) (t : Fin cfg0.N) (h1 : t.val % 4 = 3) :
    (outsAt0 m c t.val t.isLt).1 = k0_pay2 ((outsAt0 m c t.val t.isLt).2) := by
  have h0 : ¬ t.val % 4 = 0 := by omega
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2).trans
    (congrArg k0_pay2 (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2).symm)

/-- THE RUNNING SUM: after point `t` the accumulator scratch holds, at window `n`, the running sum `cum`. By induction
    on the point. -/
theorem scratch_eq (c : Dev nD) (n : Fin 16379) :
    ∀ (t : ℕ) (h : t < cfg0.N), (outsAt0 m c t h).2 (ix2 0 n) = cum m c n t
  | 0, h => by
    have e : (outsAt0 m c 0 h).2 = _ := scratch_first m c ⟨0, h⟩ rfl
    rw [e, step_at, zero_row_at, zero_add]
    rfl
  | t + 1, h => by
    by_cases h0 : (t + 1) % 4 = 0
    · have e : (outsAt0 m c (t + 1) h).2 = _ := scratch_first m c ⟨t + 1, h⟩ h0
      rw [e, step_at, zero_row_at, zero_add]
      show be m c n (t + 1) = cum m c n (t + 1)
      rw [cum, if_pos h0]
    · have e : (outsAt0 m c (t + 1) h).2 = _ := scratch_next m c ⟨t + 1, h⟩ h0
      rw [e, step_at]
      show (outsAt0 m c t _).2 (ix2 0 n) + be m c n (t + 1) = cum m c n (t + 1)
      rw [scratch_eq c n t, cum, if_neg h0]

/-- The partial sums the region leaves: row `cc` of the [2, 1, 16379] array is the running sum after core `cc`'s last
    row block (point `4·cc + 3`). -/
def partials (c : Dev nD) : S2x1x16379.Idx → EReal :=
  fun i => cum m c ⟨(i 2).val, (i 2).isLt⟩ (4 * (i 0).val + 3)

/-- An accumulator row viewed as a [1, 1, 16379] block keeps its entries. -/
theorem asBlock_at (v : Vec Ideal S1x16379 .f32) (y : S1x1x16379.Idx) :
    (k0_pay2 v : FVec Ideal S1x1x16379 .f32) y = v (ix2 0 ⟨(y 2).val, (y 2).isLt⟩) := by
  unfold k0_pay2
  refine shapeCast_apply v _ y _ ?_
  rw [Shape.rowMajor_val_two, Shape.rowMajor_val_three]
  have h0 : (y 0).val < 1 := (y 0).isLt
  have h1 : (y 1).val < 1 := (y 1).isLt
  show 0 * 16379 + (y 2).val = ((y 0).val * 1 + (y 1).val) * 16379 + (y 2).val
  omega

/-- What a core's last point writes back is its block of the partial sums. -/
theorem flushed_eq (c : Dev nD) (t : Fin cfg0.N) (hf : (cfg0.win 3).flush t = true) :
    (dats m 0 c).flushed 3 t = ((cfg0.win 3).blk t).view.read (Elt Ideal) (partials m c) := by
  have h3 : t.val % 4 = 3 := (flush0_3 t).mp hf
  have hN : t.val < 8 := lt_of_lt_of_eq t.isLt (show cfg0.N = 8 from N_0)
  show (cfg0.win 3).cut (grid0.coords t) ((dats m 0 c).after 3 t) = _
  rw [after0_3, out_last m c t h3]
  obtain ⟨-, -, -, -, -, -, e0, e1, e2⟩ := idx_facts t
  funext y
  show (k0_pay2 ((outsAt0 m c t.val t.isLt).2) : FVec Ideal S1x1x16379 .f32) y
    = partials m c (((cfg0.win 3).blk t).view.emb y)
  refine (asBlock_at _ y).trans ?_
  rw [scratch_eq m c _ t.val t.isLt]
  have h2 : (((cfg0.win 3).blk t).view.emb y 2).val = (y 2).val := by
    show win0_3.index t (2 : Fin 3) * 16379 + 1 * (y 2).val = (y 2).val
    rw [e2]; omega
  have h0' : 4 * (((cfg0.win 3).blk t).view.emb y 0).val + 3 = t.val := by
    have hy : (y 0).val < 1 := (y 0).isLt
    show 4 * (win0_3.index t (0 : Fin 3) * 1 + 1 * (y 0).val) + 3 = t.val
    rw [e0]; omega
  exact congrArg₂ (cum m c) (Fin.ext h2.symm) h0'.symm

/-- An index of the output array is in point `t`'s block iff each coordinate is in the block's range on its axis. -/
theorem mem_blk (t : Fin cfg0.N) (i : S2x1x16379.Idx) :
    i ∈ ((cfg0.win 3).blk t).view.set ↔ ∀ a : Fin 3, win0_3.index t a * S1x1x16379.size a ≤ (i a).val
      ∧ (i a).val < win0_3.index t a * S1x1x16379.size a + S1x1x16379.size a := by
  show i ∈ ((View.whole main_v1).slice (win0_3.rect t)).set ↔ _
  rw [View.set_slice_whole, Rect.mem_set_unit]
  exact Iff.rfl

/-- THE OUTPUT ARRAY after the run: the partial sums (each row is written back by its core's last point). -/
theorem partial_final (c : Dev nD) : (dats m 0 c).arrAt 3 cfg0.N = partials m c :=
  (dats m 0 c).arrAt_eq_of_cover 3 (partials m c) (flushed_eq m c) fun i => by
    have hi0 : (i 0).val < 2 := (i 0).isLt
    have hi1 : (i 1).val < 1 := (i 1).isLt
    have hi2 : (i 2).val < 16379 := (i 2).isLt
    have hlt : 4 * (i 0).val + 3 < cfg0.N := by rw [show cfg0.N = 8 from N_0]; omega
    refine ⟨⟨4 * (i 0).val + 3, hlt⟩, (flush0_3 _).mpr (by show (4 * (i 0).val + 3) % 4 = 3; omega), ?_⟩
    rw [mem_blk]
    obtain ⟨-, -, -, -, -, -, e0, e1, e2⟩ := idx_facts ⟨4 * (i 0).val + 3, hlt⟩
    have e0' : win0_3.index ⟨4 * (i 0).val + 3, hlt⟩ (0 : Fin 3) = (i 0).val := by
      rw [e0]; show (4 * (i 0).val + 3) / 4 = (i 0).val; omega
    intro a
    match a with
    | ⟨0, _⟩ =>
      show win0_3.index ⟨4 * (i 0).val + 3, hlt⟩ (0 : Fin 3) * 1 ≤ (i 0).val
        ∧ (i 0).val < win0_3.index ⟨4 * (i 0).val + 3, hlt⟩ (0 : Fin 3) * 1 + 1
      rw [e0']; omega
    | ⟨1, _⟩ =>
      show win0_3.index ⟨4 * (i 0).val + 3, hlt⟩ (1 : Fin 3) * 1 ≤ (i 1).val
        ∧ (i 1).val < win0_3.index ⟨4 * (i 0).val + 3, hlt⟩ (1 : Fin 3) * 1 + 1
      rw [e1]; omega
    | ⟨2, _⟩ =>
      show win0_3.index ⟨4 * (i 0).val + 3, hlt⟩ (2 : Fin 3) * 16379 ≤ (i 2).val
        ∧ (i 2).val < win0_3.index ⟨4 * (i 0).val + 3, hlt⟩ (2 : Fin 3) * 16379 + 16379
      rw [e2]; omega

/-- The two cores' partial sums add up to the total squared error of all 256 rows. -/
theorem partial_sum (c : Dev nD) (n : Fin 16379) :
    cum m c n 3 + cum m c n 7 = totalErr (W m c) (bv m c) (rows m c) n := by
  have c3 : cum m c n 3 = ((be m c n 0 + be m c n 1) + be m c n 2) + be m c n 3 := by simp [cum]
  have c7 : cum m c n 7 = ((be m c n 4 + be m c n 5) + be m c n 6) + be m c n 7 := by simp [cum]
  have e : ∀ t : Fin 8, blockErr (W m c) (bv m c) (fun b => rows m c (blockRow t b)) n = be m c n t.val :=
    fun t => (be_pt m c n t).symm
  rw [c3, c7, totalErr_eq_blocks, Fin.sum_univ_eight, e 0, e 1, e 2, e 3, e 4, e 5, e 6, e 7]
  show _ = be m c n 0 + be m c n 1 + be m c n 2 + be m c n 3 + be m c n 4 + be m c n 5 + be m c n 6 + be m c n 7
  simp only [add_assoc]

/-- The host lines after the region: the partial sums summed over the two cores from the zero word and divided by
    1280; the absolute differences of consecutive losses; their comparison with the threshold. -/
def sumOf (P : FVec Ideal S2x1x16379 .f32) : FVec Ideal S16379 .f32 :=
  Host.reduceAdd (F := Ideal) (shapeCast S2x16379 P shapeCasts_S2x1x16379_S2x16379)
    (constant (F := Ideal) S_ .f32 0x00000000#32) reducesTo_S2x16379_S16379_d0 h_S_
def lossOf (S : FVec Ideal S16379 .f32) : FVec Ideal S16379 .f32 :=
  Host.divf (F := Ideal) S (broadcastInDim S16379 ![] bcast_S_S16379 (constant (F := Ideal) S_ .f32 0x44A00000#32))
def diffsOf (L : FVec Ideal S16379 .f32) : FVec Ideal S16378 .f32 :=
  Host.absf (F := Ideal) (subf (F := Ideal) (extractStridedSlice S16378 ![1] L slices_S16379_S16378_1)
    (extractStridedSlice S16378 ![0] L slices_S16379_S16378_0))
def maskOf (D : FVec Ideal S16378 .f32) (thr : FVec Ideal S_ .f32) : IVec S16378 1 :=
  cmpf (F := Ideal) .ogt D (broadcastInDim S16378 ![] bcast_S_S16378 thr)

/-- What the lines after the region find in the output array. -/
theorem found_partials (c : Dev nD) :
    Pipeline.withArrays (cfgs 0).spec c (V0 m c) (fun w => (dats m 0 c).arrAt w (cfgs 0).N) (Proc.devRef .tc main_v1)
      = partials m c :=
  (Pipeline.withArrays_arr spec0 launch0.win.arr_inj c _ _ 3).trans (partial_final m c)

/-- What the lines after the region find in the threshold, which no window stages: its launch contents. -/
theorem found_threshold (c : Dev nD) :
    Pipeline.withArrays (cfgs 0).spec c (V0 m c) (fun w => (dats m 0 c).arrAt w (cfgs 0).N) (Proc.devRef .tc main_arg3)
      = m ((c.tc : Thread nD τ).loc main_arg3) :=
  (Pipeline.withArrays_of_ne _ c (V0 m c) _ main_arg3 (by decide : ∀ w, Pipeline.arrRef spec0 w ≠ main_arg3)).trans
    (V_main_arg3 m c)

/-- The first result after the lines that follow the region: the losses. -/
theorem tail_loss (c : Dev nD) :
    Pipeline.afterTail₀ cfgs (dats m) 0 (V0 m) [hostOps1] c main_v5 = lossOf (sumOf (partials m c)) := by
  unfold Pipeline.afterTail₀
  show StableHlo.after hostOps1 _ (Proc.devRef .tc main_v5) = _
  after_results
  rw [found_partials]
  rfl

/-- The second result: the absolute differences of consecutive losses. -/
theorem tail_diffs (c : Dev nD) :
    Pipeline.afterTail₀ cfgs (dats m) 0 (V0 m) [hostOps1] c main_v9 = diffsOf (lossOf (sumOf (partials m c))) := by
  unfold Pipeline.afterTail₀
  show StableHlo.after hostOps1 _ (Proc.devRef .tc main_v9) = _
  after_results
  rw [found_partials]
  rfl

/-- The third result: where a difference exceeds the threshold. -/
theorem tail_mask (c : Dev nD) :
    Pipeline.afterTail₀ cfgs (dats m) 0 (V0 m) [hostOps1] c main_v11
      = maskOf (diffsOf (lossOf (sumOf (partials m c)))) (m ((c.tc : Thread nD τ).loc main_arg3)) := by
  unfold Pipeline.afterTail₀
  show StableHlo.after hostOps1 _ (Proc.devRef .tc main_v11) = _
  after_results
  rw [found_partials, found_threshold]
  rfl

/-- The kernel's summed squared error at window `n`, before the division: the zero word plus the total. -/
theorem sumOf_at (c : Dev nD) (n : Fin 16379) :
    sumOf (partials m c) (ix1 n)
      = Ideal.ofBits .f32 0x00000000#32 + totalErr (W m c) (bv m c) (rows m c) n := by
  unfold sumOf Host.reduceAdd
  refine (Ideal.hostReduceAdd_single reducesTo_S2x16379_S16379_d0 (by decide : S2x16379.Reduces [0] S16379) _ _
    (ix1 n)).trans ?_
  show Ideal.ofBits .f32 0x00000000#32 + ∑ k : Fin 2, shapeCast S2x16379 (partials m c) shapeCasts_S2x1x16379_S2x16379
    ((by decide : S2x16379.Reduces [0] S16379).lift (ix1 n) k) = _
  rw [Fin.sum_univ_two, ← partial_sum]
  refine congrArg (Ideal.ofBits .f32 0x00000000#32 + ·) (congrArg₂ (· + ·) ?_ ?_)
  · refine (shapeCast_apply _ _ _ (ix3 0 0 n) ?_).trans rfl
    rw [Shape.rowMajor_val_three, Shape.rowMajor_val_two]
    rfl
  · refine (shapeCast_apply _ _ _ (ix3 1 0 n) ?_).trans rfl
    rw [Shape.rowMajor_val_three, Shape.rowMajor_val_two]
    rfl

/-- THE KERNEL'S RUN, READ: every weakly fair execution terminates with the three results at the host lines'
    functions of the partial sums, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5) = lossOf (sumOf (partials m c))
      ∧ r.2.mem ((c.tc : Thread nD τ).loc main_v9) = diffsOf (lossOf (sumOf (partials m c)))
      ∧ r.2.mem ((c.tc : Thread nD τ).loc main_v11)
          = maskOf (diffsOf (lossOf (sumOf (partials m c)))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_loss m c),
      ((h c).2 main_v9 (Pipeline.mem_restRefs_of main_v9 (by decide) (by decide))).trans (tail_diffs m c),
      ((h c).2 main_v11 (Pipeline.mem_restRefs_of main_v11 (by decide) (by decide))).trans (tail_mask m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.GridSum

end
-- ==== Proof.RefLoss.lean ====
/-
  The reference's summed squared error, read as a value.

  The reference builds the index array `idx[n, k] = n + k` (an iota plus an iota, with a wrap of negative entries that
  never happens since every entry is non-negative), gathers the local windows `series[:, idx]` and the target windows
  `series[:, idx + 1]` (every index lies inside the row, so the gather's clamp changes nothing), contracts the local
  windows with the weights, adds the bias, subtracts the targets, squares, and sums over rows and outputs from the
  zero word. Read at a window `n` that sum is the zero word plus the specification's `totalErr` (`lossSum_at`).
-/
import proofs.«107599_j63307817943524_1_alg».proof.Proof.Gen.ReferenceIdeal.Read
import proofs.«107599_j63307817943524_1_alg».proof.Proof.WindowLoss
import Idealize.ShloMosaic.Lib.Affine
import Idealize.ShloMosaic.Lib.ValueIdx
import Idealize.ShloMosaic.Lib.Pipeline.Value
import Idealize.ShloMosaic.PureOps.Ideal.Laws

noncomputable section

namespace Cert.ReferenceIdeal.RefLoss

open Idealize.ShloMosaic Idealize.ShloMosaic.ValueIdx Cert.ReferenceIdeal Cert.ReferenceIdeal.Gen Cert.ReferenceIdeal.Read
open Cert.WindowLoss

/-- The dimension numbers of the two gathers `series[:, idx]`: whole columns of 256 rows, one sample each. -/
abbrev colGather := gather_S256x16384_S16379x5x1_S256x16379x5_0_1_n_n_1_2_2561

/-- The gather `series[:, idx]` read at row `b`, window `n`, position `k`: the series at row `b` and at the sample the
    index array names at `(n, k)`, read signed and clamped into the row. -/
theorem gather_at {w : ℕ} (x : S256x16384.Idx → EReal) (idx : IVec S16379x5x1 w) (b : Fin 256) (n : Fin 16379) (k : Fin 5) :
    Host.gather colGather x idx (ix3 b n k)
      = x (ix2 b ⟨min (idx (ix3 n k 0)).toInt.toNat 16383, by omega⟩) := by
  unfold Host.gather
  refine congrArg x (funext fun a => Fin.ext ?_)
  show colGather.start (ix3 b n k) idx a + colGather.batchCoord (ix3 b n k) a + colGather.offCoord (ix3 b n k) a = _
  rw [GatherDims.batchCoord_eq_zero _ _ _ List.not_mem_nil]
  have h2 : ∀ a : Fin 2, a = 0 ∨ a = 1 := by decide
  rcases h2 a with rfl | rfl
  ·
    unfold GatherDims.start GatherDims.offCoord
    rw [dif_neg (show ¬ (0 : Fin 2) ∈ colGather.startIndexMap by decide),
      dif_pos ((GatherDims.mem_sKept _ _).mpr ⟨by decide, List.not_mem_nil⟩)]
    show 0 + 0 + b.val = b.val
    omega
  ·
    rw [GatherDims.offCoord_eq_zero _ _ _ (fun h => ((GatherDims.mem_sKept _ _).mp h).1 (List.mem_singleton.mpr rfl))]
    unfold GatherDims.start
    rw [dif_pos (show (1 : Fin 2) ∈ colGather.startIndexMap from List.mem_singleton.mpr rfl)]
    have hsi : colGather.siIdx (ix3 b n k) ⟨List.idxOf (1 : Fin 2) colGather.startIndexMap,
        List.idxOf_lt_length_iff.2 (List.mem_singleton.mpr rfl)⟩ = ix3 n k 0 := by
      funext c; refine Fin.ext ?_
      match c with
      | ⟨0, _⟩ => rfl
      | ⟨1, _⟩ => rfl
      | ⟨2, _⟩ => rfl
    rw [hsi]
    rfl

/-- A small natural number as a 32-bit word, read back signed. -/
theorem toInt_ofNat_small (k : ℕ) (hk : k < 2147483648) : (BitVec.ofNat 32 k).toInt = (k : ℤ) := by
  rw [BitVec.toInt_eq_toNat_cond, BitVec.toNat_ofNat]
  have : k % 2 ^ 32 = k := Nat.mod_eq_of_lt (by omega)
  rw [this]
  split <;> omega

/-- The index arithmetic of `arange(N)[:, None] + arange(W)[None, :]`: for a sum `s` below the row length, the entry
    (with the wrap-around of negative entries, which never happens) read signed is `s`. -/
theorem wrapped_index (s : ℕ) (hs : s < 16384) :
    (Scalar.select (IntOp.cmpi .slt (BitVec.ofNat 32 s) 0#32) (IntOp.addi (BitVec.ofNat 32 s) 16384#32)
      (BitVec.ofNat 32 s)).toInt.toNat = s := by
  have hnn : ¬ IntOp.cmpi .slt (BitVec.ofNat 32 s) 0#32 = 1#1 := by
    rw [IntOp.cmpi_slt, toInt_ofNat_small _ (by omega)]
    show ¬ ((s : ℤ) < 0)
    omega
  rw [eq_zero_of_ne_one hnn, select_zero, toInt_ofNat_small _ (by omega)]
  omega

/-- The sample a window's local position reads: `idx[n, k] = n + k`. -/
theorem idx_local (n : Fin 16379) (k : Fin 5) :
    (val_main_v12 (F := Ideal) (ix3 n k 0)).toInt.toNat = n.val + k.val := by
  rw [val_main_v12_apply, val_main_v11_apply, val_main_v8_apply, val_main_v10_apply, val_main_v6_apply,
    val_main_v4_apply, val_main_v5_apply, val_main_v1_apply, val_main_v3_apply, val_main_v0_apply, val_main_v2_apply,
    val_main_v7_apply, val_main_c_apply, val_main_v9_apply, val_main_c_0_apply]
  show (Scalar.select (IntOp.cmpi .slt (BitVec.ofNat 32 n.val + BitVec.ofNat 32 k.val) 0#32)
    (IntOp.addi (BitVec.ofNat 32 n.val + BitVec.ofNat 32 k.val) 16384#32)
    (BitVec.ofNat 32 n.val + BitVec.ofNat 32 k.val)).toInt.toNat = _
  rw [← BitVec.ofNat_add]
  exact wrapped_index _ (by have := n.isLt; have := k.isLt; omega)

/-- The sample a window's target position reads: `idx[n, k] + 1 = n + k + 1`. -/
theorem idx_target (n : Fin 16379) (k : Fin 5) :
    (val_main_v21 (F := Ideal) (ix3 n k 0)).toInt.toNat = n.val + k.val + 1 := by
  rw [val_main_v21_apply, val_main_v20_apply, val_main_v17_apply, val_main_v19_apply, val_main_v15_apply,
    val_main_v6_apply, val_main_v4_apply, val_main_v5_apply, val_main_v1_apply, val_main_v3_apply, val_main_v0_apply,
    val_main_v2_apply, val_main_v14_apply, val_main_c_1_apply, val_main_v16_apply, val_main_c_2_apply,
    val_main_v18_apply, val_main_c_3_apply]
  show (Scalar.select (IntOp.cmpi .slt (BitVec.ofNat 32 n.val + BitVec.ofNat 32 k.val + BitVec.ofNat 32 1) 0#32)
    (IntOp.addi (BitVec.ofNat 32 n.val + BitVec.ofNat 32 k.val + BitVec.ofNat 32 1) 16384#32)
    (BitVec.ofNat 32 n.val + BitVec.ofNat 32 k.val + BitVec.ofNat 32 1)).toInt.toNat = _
  rw [← BitVec.ofNat_add, ← BitVec.ofNat_add]
  exact wrapped_index _ (by have := n.isLt; have := k.isLt; omega)

section
variable (x0 : (⟨S256x16384, .f32⟩ : BufTy).Contents (Elt Ideal)) (x1 : (⟨S5x5, .f32⟩ : BufTy).Contents (Elt Ideal))
  (x2 : (⟨S5, .f32⟩ : BufTy).Contents (Elt Ideal))

/-- The local windows `series[:, idx]`: row `b`, window `n`, position `k` is the sample `n + k` of row `b`. -/
theorem local_at (b : Fin 256) (n : Fin 16379) (k : Fin 5) :
    val_main_v13 (F := Ideal) x0 (ix3 b n k) = x0 (ix2 b (sh n k.castSucc)) := by
  unfold val_main_v13
  refine (gather_at x0 _ b n k).trans (congrArg x0 (congrArg (ix2 b) (Fin.ext ?_)))
  show min (val_main_v12 (F := Ideal) (ix3 n k 0)).toInt.toNat 16383 = n.val + k.val
  rw [idx_local]
  have := n.isLt; have := k.isLt; omega

/-- The target windows `series[:, idx + 1]`: the sample `n + k + 1` of row `b`. -/
theorem target_at (b : Fin 256) (n : Fin 16379) (k : Fin 5) :
    val_main_v22 (F := Ideal) x0 (ix3 b n k) = x0 (ix2 b (sh n k.succ)) := by
  unfold val_main_v22
  refine (gather_at x0 _ b n k).trans (congrArg x0 (congrArg (ix2 b) (Fin.ext ?_)))
  show min (val_main_v21 (F := Ideal) (ix3 n k 0)).toInt.toNat 16383 = n.val + (k.val + 1)
  rw [idx_target]
  have := n.isLt; have := k.isLt; omega

/-- The squared error array at row `b`, window `n`, output `h`. -/
theorem sqErr_at (b : Fin 256) (n : Fin 16379) (h : Fin 5) :
    val_main_v28 (F := Ideal) x0 x1 x2 (ix3 b n h)
      = sqErr (fun h w => x1 (ix2 h w)) (fun h => x2 (ix1 h)) (fun k => x0 (ix2 b k)) n h := by
  have hd : val_main_v27 (F := Ideal) x0 x1 x2 (ix3 b n h)
      = pred (fun h w => x1 (ix2 h w)) (fun h => x2 (ix1 h)) (fun k => x0 (ix2 b k)) n h - x0 (ix2 b (sh n h.succ)) := by
    rw [val_main_v27_apply, val_main_v26_apply, val_main_v23_apply, val_main_v25_apply, val_main_v24_apply,
      target_at, pred_eq_sum]
    refine congrArg₂ (· - ·) (congrArg₂ (· + ·) (Finset.sum_congr rfl fun k _ => ?_) ?_) rfl
    · have e : lidx_main_v23 (ix3 b n h) k = ix3 b n k := funext fun a => Fin.ext (by
        match a with
        | ⟨0, _⟩ => rfl
        | ⟨1, _⟩ => rfl
        | ⟨2, _⟩ => rfl)
      have e' : ridx_main_v23 (ix3 b n h) k = ix2 h k := funext fun a => Fin.ext (by
        match a with
        | ⟨0, _⟩ => rfl
        | ⟨1, _⟩ => rfl)
      rw [e, e', local_at]
    · refine congrArg x2 (funext fun a => Fin.ext ?_)
      match a with
      | ⟨0, _⟩ => rfl
  rw [val_main_v28_apply, hd]
  rfl

end

/-- A sum over the entries of a [256, 16379, 5] array that lie over window `n` is the double sum over rows and outputs. -/
theorem sum_over_window (f : S256x16379x5.Idx → EReal) (n : Fin 16379) :
    ∑ i ∈ Finset.univ.filter (fun i => reducesTo_S256x16379x5_S16379_d0_2.drop i = ix1 n), f i
      = ∑ b : Fin 256, ∑ h : Fin 5, f (ix3 b n h) := by
  rw [← Finset.sum_product']
  have hmid : ∀ i : S256x16379x5.Idx, reducesTo_S256x16379x5_S16379_d0_2.drop i = ix1 n → i 1 = n := fun i hi => by
    have := congrFun hi 0
    exact Fin.ext (congrArg Fin.val this)
  refine Finset.sum_nbij' (fun i => ((i 0 : Fin 256), (i 2 : Fin 5))) (fun p => ix3 p.1 n p.2) ?_ ?_ ?_ ?_ ?_
  · intro i _; exact Finset.mem_product.2 ⟨Finset.mem_univ _, Finset.mem_univ _⟩
  · intro p _
    refine Finset.mem_filter.2 ⟨Finset.mem_univ _, funext fun c => ?_⟩
    match c with
    | ⟨0, _⟩ => rfl
  · intro i hi
    have h1 := hmid i (Finset.mem_filter.1 hi).2
    funext a
    match a with
    | ⟨0, _⟩ => rfl
    | ⟨1, _⟩ => exact h1.symm
    | ⟨2, _⟩ => rfl
  · intro p _; rfl
  · intro i hi
    have h1 := hmid i (Finset.mem_filter.1 hi).2
    refine congrArg f (funext fun a => ?_)
    match a with
    | ⟨0, _⟩ => rfl
    | ⟨1, _⟩ => exact h1
    | ⟨2, _⟩ => rfl

section
variable (x0 : (⟨S256x16384, .f32⟩ : BufTy).Contents (Elt Ideal)) (x1 : (⟨S5x5, .f32⟩ : BufTy).Contents (Elt Ideal))
  (x2 : (⟨S5, .f32⟩ : BufTy).Contents (Elt Ideal))

/-- The reference's sum over rows and outputs at window `n`: the zero word plus the total squared error. -/
theorem lossSum_at (n : Fin 16379) :
    val_main_v29 (F := Ideal) x0 x1 x2 (ix1 n)
      = Ideal.ofBits .f32 0x00000000#32
        + totalErr (fun h w => x1 (ix2 h w)) (fun h => x2 (ix1 h)) (fun b k => x0 (ix2 b k)) n := by
  unfold val_main_v29 Host.reduceAdd
  show Ideal.hostReduceAdd _ (val_main_v28 (F := Ideal) x0 x1 x2) (Ideal.ofBits .f32 0x00000000#32) (ix1 n) = _
  unfold Ideal.hostReduceAdd
  rw [sum_over_window]
  exact congrArg₂ (· + ·) rfl
    (Finset.sum_congr rfl fun b _ => Finset.sum_congr rfl fun h _ => sqErr_at x0 x1 x2 b n h)

end

end Cert.ReferenceIdeal.RefLoss

end
-- ==== Proof.LossesAgree.lean ====
/-
  The kernel's results and the reference's are the same functions of the arguments.

  Both programs compute, for every window `n`, the zero word plus the total squared prediction error over all 256 rows
  and five outputs — the reference in one sum over rows and outputs, the kernel as two cores' partial sums, each
  accumulated over four blocks of 32 rows (equal because `+` on the extended reals is commutative and associative) —
  and then apply the same three steps to it: the division by 1280, the absolute differences of consecutive losses, the
  comparison with the threshold. So from memories that agree on the four arguments the three results agree.
-/
import proofs.«107599_j63307817943524_1_alg».proof.Defs
import proofs.«107599_j63307817943524_1_alg».proof.Proof.GridSum
import proofs.«107599_j63307817943524_1_alg».proof.Proof.RefLoss
import proofs.«107599_j63307817943524_1_alg».proof.Proof.Gen.Pre_finite_inputs

noncomputable section

namespace Cert.Proof.LossesAgree

open Idealize.ShloMosaic Idealize.ShloMosaic.TcCoe Idealize.SL.Sem Idealize.ShloMosaic.ValueIdx
open Cert.KernelIdeal.GridSum (partials sumOf lossOf diffsOf maskOf sumOf_at)
open Cert.ReferenceIdeal.Read
open Cert.ReferenceIdeal.RefLoss (lossSum_at)

/-- The reference's sum over rows and outputs is the kernel's sum of its two cores' partial sums, as functions of the
    window, when the reference's arguments are the kernel's. -/
theorem sums_agree (m : (ℓ : Loc Cert.KernelIdeal.nD Cert.KernelIdeal.τ Cert.KernelIdeal.sig) → Buf (Elt Ideal) ℓ)
    (c : Dev Cert.KernelIdeal.nD)
    (x0 : (⟨Cert.ReferenceIdeal.S256x16384, .f32⟩ : BufTy).Contents (Elt Ideal))
    (x1 : (⟨Cert.ReferenceIdeal.S5x5, .f32⟩ : BufTy).Contents (Elt Ideal))
    (x2 : (⟨Cert.ReferenceIdeal.S5, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2)) :
    val_main_v29 (F := Ideal) x0 x1 x2 = sumOf (partials m c) := by
  subst h0 h1 h2
  funext j
  obtain ⟨n, rfl⟩ : ∃ n : Fin 16379, j = ix1 n := ⟨j 0, eq_ix1 j⟩
  rw [lossSum_at]
  exact (sumOf_at m c n).symm

/-- `Cert.algebraic_KernelIdeal_ReferenceIdeal`: at the ideal instance, from memories agreeing on the arguments, both
    programs run and end with equal losses, equal differences and equal comparisons, the arguments unchanged. -/
theorem algebraic : Cert.algebraic_KernelIdeal_ReferenceIdeal := by
  intro m ρ m' ρ' _ hagree
  refine ⟨_, _, _, Cert.KernelIdeal.GridSum.run m ρ, ?_⟩
  refine (θ_run Cert.ReferenceIdeal.defs _ _).mono (fun _ h c => ?_) (Cert.ReferenceIdeal.Value.run (F := Ideal) m' ρ')
  obtain ⟨a0, a1, a2, a3⟩ := hagree c
  have hs := sums_agree m c _ _ _ a0 a1 a2
  refine ⟨(h c).1.trans ?_, (h c).2.1.trans ?_, (h c).2.2.1.trans ?_, (h c).2.2.2⟩
  · rw [val_main_v31_eq]
    unfold val_main_v31
    rw [hs]
    rfl
  · rw [val_main_v35_eq]
    unfold val_main_v35 val_main_v34 val_main_v32 val_main_v33 val_main_v31
    rw [hs]
    rfl
  · rw [val_main_v37_eq]
    unfold val_main_v37 val_main_v36 val_main_v35 val_main_v34 val_main_v32 val_main_v33 val_main_v31
    rw [hs, a3]
    rfl

end Cert.Proof.LossesAgree

end
-- ==== Proof.lean ====
/-
  The certificate of the windowed prediction-loss kernel against its reference.

  The kernel splits the 256 rows of the series between two cores, each accumulating, over four blocks of 32 rows, the
  squared one-step prediction errors of a 5 × 5 affine map on every window of five samples; the host then adds the two
  partial sums, divides by the number of terms, and reports the losses, the absolute differences of consecutive
  losses, and where a difference exceeds the threshold. The reference gathers all windows at once, contracts them with
  the weights, and takes the mean over rows and outputs. Over the extended reals the two are the same function of the
  arguments: the sums differ only in how they are grouped and ordered, and the remaining steps are the same.

  The three frames are the generated frame runs (the reference's is its generated run with the results dropped); the
  ideal pass rewrote nothing, so `preserves` is trivial; `algebraic` is `LossesAgree.algebraic`.
-/
import proofs.«107599_j63307817943524_1_alg».proof.Defs
import proofs.«107599_j63307817943524_1_alg».proof.Proof.Gen.Kernel
import proofs.«107599_j63307817943524_1_alg».proof.Proof.Gen.Kernel.Skeleton
import proofs.«107599_j63307817943524_1_alg».proof.Proof.Gen.Kernel.Launch
import proofs.«107599_j63307817943524_1_alg».proof.Proof.Gen.Kernel.Points
import proofs.«107599_j63307817943524_1_alg».proof.Proof.Gen.Kernel.Frame
import proofs.«107599_j63307817943524_1_alg».proof.Proof.Gen.KernelIdeal
import proofs.«107599_j63307817943524_1_alg».proof.Proof.Gen.KernelIdeal.Skeleton
import proofs.«107599_j63307817943524_1_alg».proof.Proof.Gen.KernelIdeal.Launch
import proofs.«107599_j63307817943524_1_alg».proof.Proof.Gen.KernelIdeal.Points
import proofs.«107599_j63307817943524_1_alg».proof.Proof.Gen.KernelIdeal.Frame
import proofs.«107599_j63307817943524_1_alg».proof.Proof.Gen.ReferenceIdeal
import proofs.«107599_j63307817943524_1_alg».proof.Proof.Gen.ReferenceIdeal.Run
import proofs.«107599_j63307817943524_1_alg».proof.Proof.Gen.Pre_finite_inputs
import proofs.«107599_j63307817943524_1_alg».proof.Proof.LossesAgree
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2)
    (Cert.ReferenceIdeal.Value.run (F := Ideal) m ρ),
  trivial,
  Cert.Proof.LossesAgree.algebraic⟩

end Cert.Proof

end
